-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S2 : Shape := ⟨1, ![2]⟩
abbrev S8192 : Shape := ⟨1, ![8192]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel
  bcast_S_S2 : S_.BroadcastsInDim S2 (![] : Fin 0 → Fin S2.rank)
  reducesTo_S2_S_d0 : S2.ReducesTo [0] S_

variable [Facts]

def fn {F : FTy → Type} [FloatOps F] (main_arg0 : FVec F S8192x2 .f32) (main_arg1 : FVec F S2 .f32) (main_arg2 : IVec S8192 32) : IVec S_ 1 :=
  let main_v0 : FVec F S8192x2 .f32 := Host.absf main_arg0
  let main_cst : FVec F S_ .f32 := constant S_ .f32 0x7F800000#32
  let main_v1 : FVec F S8192x2 .f32 := broadcastInDim S8192x2 ![] bcast_S_S8192x2 main_cst
  let main_v2 : IVec S8192x2 1 := cmpf .olt main_v0 main_v1
  let main_c : IVec S_ 1 := constantI S_ 1 1#1
  let main_v3 : IVec S_ 1 := (fun x v => Host.reduce IntOp.andi x v reducesTo_S8192x2_S_d0_1 h_S_) main_v2 main_c
  let main_v4 : FVec F S2 .f32 := Host.absf main_arg1
  let main_cst_0 : FVec F S_ .f32 := constant S_ .f32 0x7F800000#32
  let main_v5 : FVec F S2 .f32 := broadcastInDim S2 ![] bcast_S_S2 main_cst_0
  let main_v6 : IVec S2 1 := cmpf .olt main_v4 main_v5
  let main_c_1 : IVec S_ 1 := constantI S_ 1 1#1
  let main_v7 : IVec S_ 1 := (fun x v => Host.reduce IntOp.andi x v reducesTo_S2_S_d0 h_S_) main_v6 main_c_1
  let main_v8 : IVec S_ 1 := andi main_v3 main_v7
  main_v8
-- ==== Kernel.lean ====
abbrev S8192x2 : Shape := ⟨2, ![8192, 2]⟩
abbrev S2 : Shape := ⟨1, ![2]⟩
abbrev S8192 : Shape := ⟨1, ![8192]⟩
abbrev S_ : Shape := ⟨0, ![]⟩
abbrev S8192x1 : Shape := ⟨2, ![8192, 1]⟩
abbrev S1x2 : Shape := ⟨2, ![1, 2]⟩
abbrev S2x8192 : Shape := ⟨2, ![2, 8192]⟩
abbrev S1x1 : Shape := ⟨2, ![1, 1]⟩
abbrev S256x1 : Shape := ⟨2, ![256, 1]⟩
abbrev S256x2 : Shape := ⟨2, ![256, 2]⟩
abbrev S1x8192 : Shape := ⟨2, ![1, 8192]⟩
abbrev S256x8192 : Shape := ⟨2, ![256, 8192]⟩
abbrev S256 : Shape := ⟨1, ![256]⟩
abbrev S1 : Shape := ⟨1, ![1]⟩

abbrev nBuf : Space → Nat
  | .hbm => 51
  | .vmem => 6
  | .smem => 0
  | _ => 0

abbrev bufTy : (tb : Table) → Fin (tcTables nBuf tb) → BufTy
  | .hbm, ⟨0, _⟩ => ⟨S8192x2, .f32⟩
  | .hbm, ⟨1, _⟩ => ⟨S2, .f32⟩
  | .hbm, ⟨2, _⟩ => ⟨S8192, .i32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192x1, .f32⟩
  | .hbm, ⟨9, _⟩ => ⟨S8192x2, .f32⟩
  | .hbm, ⟨10, _⟩ => ⟨S8192x2, .f32⟩
  | .hbm, ⟨11, _⟩ => ⟨S8192x2, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x1, .f32⟩
  | .hbm, ⟨16, _⟩ => ⟨S8192x2, .f32⟩
  | .hbm, ⟨17, _⟩ => ⟨S8192x2, .f32⟩
  | .hbm, ⟨18, _⟩ => ⟨S8192x2, .f32⟩
  | .hbm, ⟨19, _⟩ => ⟨S8192x1, .i32⟩
  | .hbm, ⟨20, _⟩ => ⟨S1x2, .i32⟩
  | .hbm, ⟨21, _⟩ => ⟨S8192x2, .i32⟩
  | .hbm, ⟨22, _⟩ => ⟨S8192x2, .i32⟩
  | .hbm, ⟨23, _⟩ => ⟨S8192x2, .i1⟩
  | .hbm, ⟨24, _⟩ => ⟨S8192x2, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192x2, .f32⟩
  | .hbm, ⟨29, _⟩ => ⟨S8192x2, .f32⟩
  | .hbm, ⟨30, _⟩ => ⟨S_, .f32⟩
  | .hbm, ⟨31, _⟩ => ⟨S8192x2, .f32⟩
  | .hbm, ⟨32, _⟩ => ⟨S8192x2, .f32⟩
  | .hbm, ⟨33, _⟩ => ⟨S1x2, .f32⟩
  | .hbm, ⟨34, _⟩ => ⟨S8192x2, .f32⟩
  | .hbm, ⟨35, _⟩ => ⟨S8192x2, .f32⟩
  | .hbm, ⟨36, _⟩ => ⟨S8192x2, .f32⟩
  | .hbm, ⟨37, _⟩ => ⟨S8192x2, .f32⟩
  | .hbm, ⟨38, _⟩ => ⟨S8192x2, .f32⟩
  | .hbm, ⟨39, _⟩ => ⟨S8192x2, .f32⟩
  | .hbm, ⟨40, _⟩ => ⟨S_, .f32⟩
  | .hbm, ⟨41, _⟩ => ⟨S8192, .f32⟩
  | .hbm, ⟨42, _⟩ => ⟨S8192x2, .f32⟩
  | .hbm, ⟨43, _⟩ => ⟨S2x8192, .f32⟩
  | .hbm, ⟨44, _⟩ => ⟨S8192x1, .f32⟩
  | .hbm, ⟨45, _⟩ => ⟨S1x1, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S256x1, .f32⟩
  | .local _ .vmem, ⟨1, _⟩ => ⟨S256x1, .f32⟩
  | .local _ .vmem, ⟨2, _⟩ => ⟨S256x2, .f32⟩
  | .local _ .vmem, ⟨3, _⟩ => ⟨S256x2, .f32⟩
  | .local _ .vmem, ⟨4, _⟩ => ⟨S2x8192, .f32⟩
  | .local _ .vmem, ⟨5, _⟩ => ⟨S1x1, .f32⟩
  | _, _ => ⟨S8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v2 : Ref sig .tc := ⟨.hbm, 24, rfl⟩
abbrev main_cst : Ref sig .tc := ⟨.hbm, 25, rfl⟩
abbrev main_cst_0 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_2 : Ref sig .tc := ⟨.hbm, 47, rfl⟩
abbrev main_v17 : Ref sig .tc := ⟨.hbm, 48, rfl⟩
abbrev main_cst_3 : Ref sig .tc := ⟨.hbm, 49, rfl⟩
abbrev main_v18 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  reducesTo_S8192x2_S8192_d1 : S8192x2.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  bcast_S1x2_S8192x2_0_1 : S1x2.BroadcastsInDim S8192x2 (![0, 1] : Fin 2 → Fin S8192x2.rank)
  bcast_S_S8192x2 : S_.BroadcastsInDim S8192x2 (![] : Fin 0 → Fin S8192x2.rank)
  bcast_S2_S1x2_1 : S2.BroadcastsInDim S1x2 (![1] : Fin 1 → Fin S1x2.rank)
  transposes_S8192x2_S2x8192_1_0 : S8192x2.Transposes [1, 0] S2x8192
  shapeCasts_S8192_S8192x1 : S8192.ShapeCasts S8192x1
  inb_S1x1_S1x1_0_0 : ∀ a, (![0, 0] : Fin 2 → Nat) a + S1x1.size a ≤ S1x1.size a
  h_S1x1 : 0 < S1x1.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x2_S256x1_0_0 : ∀ a, (![0, 0] : Fin 2 → Nat) a + S256x1.size a ≤ S256x2.size a
  inb_S256x2_S256x1_0_1 : ∀ a, (![0, 1] : Fin 2 → Nat) a + S256x1.size a ≤ S256x2.size a
  inb_S2x8192_S1x8192_0_0 : ∀ a, (![0, 0] : Fin 2 → Nat) a + S1x8192.size a ≤ S2x8192.size a
  h_S1x8192 : 0 < S1x8192.numel
  shapeCasts_S1x8192_S1x8192 : S1x8192.ShapeCasts S1x8192
  inb_S2x8192_S1x8192_1_0 : ∀ a, (![1, 0] : Fin 2 → Nat) a + S1x8192.size a ≤ S2x8192.size a
  broadcasts_S256x1_S256x8192 : S256x1.Broadcasts S256x8192
  broadcasts_S1x8192_S256x8192 : S1x8192.Broadcasts S256x8192
  reduces_S256x8192_S256 : S256x8192.Reduces [1] S256
  shapeCasts_S256_S256x1 : S256.ShapeCasts S256x1
  reduces_S256x1_S1 : S256x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S8192x1.size a
  hwx0_0 : ∀ i : grid0.Coords, EltTy.bits .f32 = 32 ∨ (Rect.block (s := S8192x1) S256x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2.size a ≤ S8192x2.size a
  hwx0_1 : ∀ i : grid0.Coords, EltTy.bits .f32 = 32 ∨ (Rect.block (s := S8192x2) S256x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x8192.size a ≤ S2x8192.size a
  hwx0_2 : ∀ i : grid0.Coords, EltTy.bits .f32 = 32 ∨ (Rect.block (s := S2x8192) S2x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v14) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S256x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2 : Shape := ⟨2, ![8192, 2]⟩
abbrev S2 : Shape := ⟨1, ![2]⟩
abbrev S8192 : Shape := ⟨1, ![8192]⟩
abbrev S8192x1 : Shape := ⟨2, ![8192, 1]⟩
abbrev S1x2 : Shape := ⟨2, ![1, 2]⟩
abbrev S_ : Shape := ⟨0, ![]⟩
abbrev S8192x8192 : Shape := ⟨2, ![8192, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x2, .f32⟩
  | .hbm, ⟨1, _⟩ => ⟨S2, .f32⟩
  | .hbm, ⟨2, _⟩ => ⟨S8192, .i32⟩
  | .hbm, ⟨3, _⟩ => ⟨S8192x1, .i32⟩
  | .hbm, ⟨4, _⟩ => ⟨S1x2, .i32⟩
  | .hbm, ⟨5, _⟩ => ⟨S8192x2, .i32⟩
  | .hbm, ⟨6, _⟩ => ⟨S8192x2, .i32⟩
  | .hbm, ⟨7, _⟩ => ⟨S8192x2, .i1⟩
  | .hbm, ⟨8, _⟩ => ⟨S8192x2, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x2, .f32⟩
  | .hbm, ⟨13, _⟩ => ⟨S8192x2, .f32⟩
  | .hbm, ⟨14, _⟩ => ⟨S_, .f32⟩
  | .hbm, ⟨15, _⟩ => ⟨S8192x2, .f32⟩
  | .hbm, ⟨16, _⟩ => ⟨S8192x2, .f32⟩
  | .hbm, ⟨17, _⟩ => ⟨S1x2, .f32⟩
  | .hbm, ⟨18, _⟩ => ⟨S8192x2, .f32⟩
  | .hbm, ⟨19, _⟩ => ⟨S8192x2, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1, .f32⟩
  | .hbm, ⟨26, _⟩ => ⟨S8192x2, .f32⟩
  | .hbm, ⟨27, _⟩ => ⟨S8192x2, .f32⟩
  | .hbm, ⟨28, _⟩ => ⟨S8192x2, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x1, .f32⟩
  | .hbm, ⟨33, _⟩ => ⟨S8192x2, .f32⟩
  | .hbm, ⟨34, _⟩ => ⟨S8192x2, .f32⟩
  | .hbm, ⟨35, _⟩ => ⟨S8192x2, .f32⟩
  | .hbm, ⟨36, _⟩ => ⟨S8192x2, .f32⟩
  | .hbm, ⟨37, _⟩ => ⟨S8192x2, .f32⟩
  | .hbm, ⟨38, _⟩ => ⟨S8192x2, .f32⟩
  | .hbm, ⟨39, _⟩ => ⟨S8192x2, .f32⟩
  | .hbm, ⟨40, _⟩ => ⟨S_, .f32⟩
  | .hbm, ⟨41, _⟩ => ⟨S8192, .f32⟩
  | .hbm, ⟨42, _⟩ => ⟨S8192x2, .f32⟩
  | .hbm, ⟨43, _⟩ => ⟨S8192x1, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_cst : Ref sig .tc := ⟨.hbm, 9, rfl⟩
abbrev main_cst_0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call2_cst : Ref sig .tc := ⟨.hbm, 20, rfl⟩
abbrev main_call2_v0 : Ref sig .tc := ⟨.hbm, 21, rfl⟩
abbrev main_call2_cst_0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_v6 : Ref sig .tc := ⟨.hbm, 28, rfl⟩
abbrev main_call2_cst_1 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_2 : Ref sig .tc := ⟨.hbm, 48, rfl⟩
abbrev main_v18 : Ref sig .tc := ⟨.hbm, 49, rfl⟩
abbrev main_cst_3 : Ref sig .tc := ⟨.hbm, 50, rfl⟩
abbrev main_v19 : Ref sig .tc := ⟨.hbm, 51, rfl⟩
abbrev main_cst_4 : Ref sig .tc := ⟨.hbm, 52, rfl⟩
abbrev main_v20 : Ref sig .tc := ⟨.hbm, 53, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  bcast_S1x2_S8192x2_0_1 : S1x2.BroadcastsInDim S8192x2 (![0, 1] : Fin 2 → Fin S8192x2.rank)
  bcast_S_S8192x2 : S_.BroadcastsInDim S8192x2 (![] : Fin 0 → Fin S8192x2.rank)
  bcast_S2_S1x2_1 : S2.BroadcastsInDim S1x2 (![1] : Fin 1 → Fin S1x2.rank)
  reducesTo_S8192x2_S8192_d1 : S8192x2.ReducesTo [1] S8192
  h_S_ : 0 < S_.numel
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  reducesTo_S8192x8192_S_d0_1 : S8192x8192.ReducesTo [0, 1] S_
  dot_S8192x2_S8192x2_S8192x8192_1_1_0_0_n_n_wf : DotDims.WF S8192x2 S8192x2 S8192x8192 [1] [1] [0] [0] [] []

variable [Facts₀]

def dot_S8192x2_S8192x2_S8192x8192_1_1_0_0_n_n : DotDims S8192x2 S8192x2 S8192x8192 where
  lhsContracting := [1]
  rhsContracting := [1]
  lhsNonContracting := [0]
  rhsNonContracting := [0]
  lhsBatch := []
  rhsBatch := []
  wf := dot_S8192x2_S8192x2_S8192x8192_1_1_0_0_n_n_wf

class Facts : Prop extends Facts₀ where

variable [Facts]
-- ==== Proof.LibBlockSum.lean ====
/-
  A sum over `B * A` consecutive terms regrouped as `A` consecutive blocks of `B` terms each, in any commutative
  additive monoid: nothing but associativity of the sum is used, so the law holds on the extended reals with
  their infinities. It is what identifies a contraction accumulated block by block along its axis with the
  contraction done at once.
-/
import Mathlib.Algebra.BigOperators.Intervals
import Mathlib.Algebra.BigOperators.Fin

open scoped BigOperators

namespace Cert.BlockSum

/-- The first `B * A` terms of a sequence, summed block by block: block `s` holds the terms `B * s, …, B * s + B - 1`. -/
theorem sum_range_blocks {β : Type*} [AddCommMonoid β] (f : ℕ → β) (B : ℕ) :
    ∀ A : ℕ, ∑ k ∈ Finset.range (B * A), f k = ∑ s ∈ Finset.range A, ∑ r ∈ Finset.range B, f (B * s + r)
  | 0 => by simp
  | A + 1 => by
    rw [Nat.mul_succ, Finset.sum_range_add, sum_range_blocks f B A, Finset.sum_range_succ]

/-- The same with the terms indexed by `Fin n`, `n = B * A`, and each block's terms by `Fin B`. -/
theorem sum_fin_blocks {β : Type*} [AddCommMonoid β] (f : ℕ → β) (A B n : ℕ) (h : n = B * A) :
    ∑ k : Fin n, f k.val = ∑ s ∈ Finset.range A, ∑ r : Fin B, f (B * s + r.val) := by
  subst h
  rw [Fin.sum_univ_eq_sum_range, sum_range_blocks]
  refine Finset.sum_congr rfl fun s _ => ?_
  rw [Fin.sum_univ_eq_sum_range (fun r => f (B * s + r))]

end Cert.BlockSum
-- ==== Proof.Spec.lean ====
/-
  The pairwise loss as ONE function of three arrays, over the extended reals.

  Given a vector `A` of 8192 entries and two 8192 × 2 arrays `D` and `L`, the entry at (i, j) is
  `|A i - (D i 0 · L j 0 + D i 1 · L j 1)|` — the absolute value as `max x (-x)` —, `pairSum` adds the entries over all
  8192 × 8192 pairs, and `loss` is `(c + pairSum) / n` for the two constants the programs carry as words.
  The sum over the rows `i` is also the sum, over 32 consecutive tiles of 256 rows, of each tile's rows
  (`pairSum_eq_tiles`): only associativity and commutativity of addition are used, which hold on the extended reals with
  their infinities, so no finiteness of the arrays is needed.
-/
import Idealize.ShloMosaic.PureOps.Ideal
import Idealize.ShloMosaic.PureOps.Ideal.Laws
import Idealize.ShloMosaic.Lib.ValueIdx
import proofs.«178842_j41944650612977_1_alg».proof.Proof.LibBlockSum

noncomputable section

namespace Cert.Spec

open Idealize.ShloMosaic Idealize.ShloMosaic.ValueIdx

/-- The vector's index set. -/
abbrev I1 : Type := (⟨1, ![8192]⟩ : Shape).Idx
/-- The 8192 × 2 arrays' index set. -/
abbrev I2 : Type := (⟨2, ![8192, 2]⟩ : Shape).Idx

/-- One entry: `|a - (d0 · l0 + d1 · l1)|`, the absolute value written as the maximum of a number and its negation. -/
def entry (a d0 d1 l0 l1 : EReal) : EReal := max (a - (d0 * l0 + d1 * l1)) (-(a - (d0 * l0 + d1 * l1)))

/-- Row `i`'s entries added over every column `j`. -/
def rowSum (A : I1 → EReal) (D L : I2 → EReal) (i : Fin 8192) : EReal :=
  ∑ j : Fin 8192, entry (A (ix1 i)) (D (ix2 i (0 : Fin 2))) (D (ix2 i (1 : Fin 2))) (L (ix2 j (0 : Fin 2))) (L (ix2 j (1 : Fin 2)))

/-- All entries added. -/
def pairSum (A : I1 → EReal) (D L : I2 → EReal) : EReal := ∑ i : Fin 8192, rowSum A D L i

/-- The loss: the small constant plus the sum of all entries, divided by the number of pairs (both constants kept as the
    words the programs print; the same words stand on both sides, so they are never evaluated). -/
def loss (A : I1 → EReal) (D L : I2 → EReal) : EReal :=
  Ideal.div (Ideal.ofBits .f32 0x38D1B717#32 + pairSum A D L) (Ideal.ofBits .f32 0x4C800000#32)

/-- Row sums indexed by a natural number (zero past the last row), so that a row can be named `256 · t + r`. -/
def rowSumN (A : I1 → EReal) (D L : I2 → EReal) (n : ℕ) : EReal :=
  if h : n < 8192 then rowSum A D L ⟨n, h⟩ else 0

theorem rowSumN_of_lt (A : I1 → EReal) (D L : I2 → EReal) (n : ℕ) (h : n < 8192) :
    rowSumN A D L n = rowSum A D L ⟨n, h⟩ := dif_pos h

/-- Tile `t`: the 256 rows `256 · t, …, 256 · t + 255` added. -/
def tileSum (A : I1 → EReal) (D L : I2 → EReal) (t : ℕ) : EReal :=
  ∑ r : Fin 256, rowSumN A D L (256 * t + r.val)

/-- The sum over all rows is the sum over the 32 tiles of each tile's 256 rows. -/
theorem pairSum_eq_tiles (A : I1 → EReal) (D L : I2 → EReal) :
    pairSum A D L = ∑ t ∈ Finset.range 32, tileSum A D L t := by
  unfold pairSum tileSum
  rw [← Cert.BlockSum.sum_fin_blocks (rowSumN A D L) 32 256 8192 rfl]
  exact Finset.sum_congr rfl fun i _ => (rowSumN_of_lt A D L i.val i.isLt).symm

end Cert.Spec

end
-- ==== Proof.LibAxisReads.lean ====
/-
  Reductions of a matrix along one axis, and a product with a transposed right operand, read at an index at the
  ideal values.

  For an `[a, b]` matrix of extended reals: the sum down the rows at column `q` is `∑ k, x (k, q)`, the sum along a row
  `p` is `∑ k, x (p, k)`, and the maximum down the rows at column `q` is the fold of `max` from `-∞` over `k ↦ x (k, q)`.
  For dimension numbers that contract the second axis of an `[M, K]` left operand against the second axis of an
  `[N, K]` right operand (stated as four coordinate facts a literal record proves by unfolding), entry `(p, c)` of the
  product into a zero accumulator is `∑ k, X (p, k) · W (c, k)`. General in every extent; each accumulator
  hypothesis is an equation between two copies of one word (zero for a sum, `-∞` for a maximum).
-/
import Idealize.ShloMosaic.Lib.ValueIdx
import Idealize.ShloMosaic.PureOps.Ideal.Laws

noncomputable section

namespace Cert.Lib.AxisReads

open Idealize.ShloMosaic Idealize.ShloMosaic.ValueIdx

variable {a b : ℕ}

/-- Column `q` with row `k` put back is `(k, q)`. -/
theorem lift_axis0 (h : (⟨2, ![a, b]⟩ : Shape).Reduces [0] ⟨1, ![b]⟩) (q : Fin b)
    (k : Fin ((⟨2, ![a, b]⟩ : Shape).size 0)) : h.lift (ix1 q) k = ix2 (⟨k.val, k.isLt⟩ : Fin a) q := by
  funext c; apply Fin.ext
  fin_cases c <;> rfl

/-- Row `p` with column `k` put back is `(p, k)`. -/
theorem lift_axis1 (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext c; apply Fin.ext
  fin_cases c <;> rfl

/-- The sum down the rows, at column `q`. -/
theorem sum_axis0 (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  exact Finset.sum_congr rfl fun k _ => congrArg src (lift_axis0 h q k)

/-- The sum along row `p`. -/
theorem sum_axis1 (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_axis1 h p k)

/-- The maximum down the rows, at column `q`: the fold of `max` from `-∞`. -/
theorem max_axis0 (src : FVec Ideal ⟨2, ![a, b]⟩ .f32) (h : (⟨2, ![a, b]⟩ : Shape).Reduces [0] ⟨1, ![b]⟩)
    (hφ : FKind.Formats .f32) (hacc : (0xFF800000#32 : BitVec 32) = 0xFF800000#32) (q : Fin b) :
    multiReduction .maximumf [0] ⟨1, ![b]⟩ src 0xFF800000#32 h hφ hacc (ix1 q)
      = (Finset.univ : Finset (Fin a)).fold max (Ideal.ofBits .f32 0xFF800000#32) (fun k => src (ix2 k q)) := by
  refine (Ideal.multiReduction_maximumf_single src 0xFF800000#32 h hφ hacc (ix1 q)).trans ?_
  exact congrArg (fun f => Finset.fold max (Ideal.ofBits .f32 0xFF800000#32) f (Finset.univ : Finset (Fin a)))
    (funext fun k => congrArg src (lift_axis0 h q k))

/-- For dimension numbers contracting both operands' second axes (the four coordinate facts say so), entry `(p, c)`
    of the product into a zero accumulator is `∑ k, X (p, k) · W (c, k)`. -/
theorem matmul_rowrow {M K N : Nat} {φ₁ φ₂ : FTy}
    (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (X : FVec Ideal ⟨2, ![M, K]⟩ φ₁) (W : FVec Ideal ⟨2, ![N, K]⟩ φ₂) (p : Fin M) (c : Fin N) :
    matmul D none X W (constant ⟨2, ![M, N]⟩ .f32 0x00000000#32) (ix2 p c)
      = ∑ k : Fin K, X (ix2 p k) * W (ix2 c k) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.Lib.AxisReads

end
-- ==== Proof.LibColumn.lean ====
/-
  Column forms of two layout operations, read at an index.

  A vector of length `a` viewed as an `[a, 1]` column by a shape cast reads, at `(p, 0)`, the vector at `p`, and the column
  viewed back as a vector reads, at `p`, the column at `(p, 0)`; an `[a, 1]` column broadcast along its unit axis to `[a, b]`
  reads, at `(p, q)`, the column at `(p, 0)`. Together they are what a sum along the last axis that keeps the axis (a row
  sum stored as a column, then spread over the row) reads at an index.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column cast to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KernelStep.lean ====
/-
  One grid point of the kernel, as a value.

  At a point the body loads its row tile's column `a` (256 × 1), the two columns `d0`, `d1` of the tile's 256 × 2 block,
  the two rows `l0`, `l1` of the resident 2 × 8192 array, and the running 1 × 1 total; it stores the total plus the sum,
  over the tile's 256 rows and all 8192 columns, of `|a r - (d0 r · l0 j + d1 r · l1 j)|` (`step`). At the first point the
  running total it reads back is the zero it has just stored (`out_first`); at every later point it is what the point
  before left (`out_later`). At the ideal values `step` adds to the running total the double sum of `Spec.entry` over
  the tile (`step_apply`): a lane sum and a sublane sum are plain finite sums there.
-/
import proofs.«178842_j41944650612977_1_alg».proof.Proof.Gen.KernelIdeal.Frame
import proofs.«178842_j41944650612977_1_alg».proof.Proof.Spec
import proofs.«178842_j41944650612977_1_alg».proof.Proof.LibAxisReads
import proofs.«178842_j41944650612977_1_alg».proof.Proof.LibColumn
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Step

open Cert.KernelIdeal Cert.KernelIdeal.Gen

variable {F : FTy → Type} [FloatOps F]

theorem hz : (![0, 0] : Fin 2 → Nat) = fun _ => 0 := funext fun a => by fin_cases a <;> rfl

/-- What a point stores: the body's arithmetic on the five loaded pieces of the three input blocks and on the
    running total `acc`. -/
def step (x0 : Vec F S256x1 .f32) (x1 : Vec F S256x2 .f32) (x2 : Vec F S2x8192 .f32) (acc : Vec F S1x1 .f32) : Vec F S1x1 .f32 :=
  k0_pay2 (View.ld x0 (Rect.unit (s := S256x1) ![0, 0] S256x1.size inb_S256x1_S256x1_0_0))
    (View.ld x1 (Rect.unit (s := S256x2) ![0, 0] S256x1.size inb_S256x2_S256x1_0_0))
    (View.ld x1 (Rect.unit (s := S256x2) ![0, 1] S256x1.size inb_S256x2_S256x1_0_1))
    (View.ld x2 (Rect.unit (s := S2x8192) ![0, 0] S1x8192.size inb_S2x8192_S1x8192_0_0))
    (View.ld x2 (Rect.unit (s := S2x8192) ![1, 0] S1x8192.size inb_S2x8192_S1x8192_1_0))
    acc

/-- A later point (not the first): the output's buffer, holding `xo3`, is left at `step` of the blocks and `xo3`. -/
theorem out_later (c : Dev nD) (i : grid0.Coords) (arg1 : Memref sig .tc .vmem S256x1 .f32) (harg1 : arg1.IsWhole) (arg2 : Memref sig .tc .vmem S256x2 .f32) (harg2 : arg2.IsWhole) (arg3 : Memref sig .tc .vmem S2x8192 .f32) (harg3 : arg3.IsWhole) (arg4 : Memref sig .tc .vmem S1x1 .f32) (harg4 : arg4.IsWhole) (hc0 : ¬cond0_0 i)
    (x0 : Vec F S256x1 .f32) (x1 : Vec F S256x2 .f32) (x2 : Vec F S2x8192 .f32) (xo3 : Vec F S1x1 .f32) :
    out0_B_3 c i arg1 harg1 arg2 harg2 arg3 harg3 arg4 harg4 hc0 x0 x1 x2 xo3 = step x0 x1 x2 xo3 := by
  unfold out0_B_3
  rw [View.read_writes_eq_canon _ _ _ (cover0_B_3 c i arg1 harg1 arg2 harg2 arg3 harg3 arg4 harg4 hc0 x0 x1 x2 xo3)]
  unfold kernelRun0_B
  dsimp only
  rw [View.canon_unit_zero hz]
  simp only [View.readAt_eq_ld, harg1.read_unread, harg2.read_unread, harg3.read_unread, harg4.read_unread,
    View.ld_unit_zero (S := S1x1) hz]
  rfl

/-- The first point: the zero block is stored, read back, and the buffer is left at `step` of the blocks and zero. -/
theorem out_first (c : Dev nD) (i : grid0.Coords) (arg1 : Memref sig .tc .vmem S256x1 .f32) (harg1 : arg1.IsWhole) (arg2 : Memref sig .tc .vmem S256x2 .f32) (harg2 : arg2.IsWhole) (arg3 : Memref sig .tc .vmem S2x8192 .f32) (harg3 : arg3.IsWhole) (arg4 : Memref sig .tc .vmem S1x1 .f32) (harg4 : arg4.IsWhole) (hc0 : cond0_0 i)
    (x0 : Vec F S256x1 .f32) (x1 : Vec F S256x2 .f32) (x2 : Vec F S2x8192 .f32) :
    out0_A_3 c i arg1 harg1 arg2 harg2 arg3 harg3 arg4 harg4 hc0 x0 x1 x2 = step x0 x1 x2 (k0_pay1 (F := F)) := by
  unfold out0_A_3
  rw [View.read_writes_eq_canon _ _ _ (cover0_A_3 c i arg1 harg1 arg2 harg2 arg3 harg3 arg4 harg4 hc0 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread]
  rfl

/-! ## The pieces read at an index -/

/-- The tile's column `a`, loaded whole, read at row `r`. -/
theorem ld_a (x0 : Vec F S256x1 .f32) (r : Fin 256) :
    View.ld x0 (Rect.unit (s := S256x1) ![0, 0] S256x1.size inb_S256x1_S256x1_0_0) (ix2 r (0 : Fin 1)) = x0 (ix2 r (0 : Fin 1)) :=
  congrArg x0 (funext fun a => Fin.ext (by
    match a with
    | ⟨0, _⟩ => show 0 + 1 * r.val = r.val; omega
    | ⟨1, _⟩ => rfl))

/-- Column 0 of the tile's 256 × 2 block, read at row `r`. -/
theorem ld_d0 (x1 : Vec F S256x2 .f32) (r : Fin 256) :
    View.ld x1 (Rect.unit (s := S256x2) ![0, 0] S256x1.size inb_S256x2_S256x1_0_0) (ix2 r (0 : Fin 1)) = x1 (ix2 r (0 : Fin 2)) :=
  congrArg x1 (funext fun a => Fin.ext (by
    match a with
    | ⟨0, _⟩ => show 0 + 1 * r.val = r.val; omega
    | ⟨1, _⟩ => rfl))

/-- Column 1 of the tile's 256 × 2 block, read at row `r`. -/
theorem ld_d1 (x1 : Vec F S256x2 .f32) (r : Fin 256) :
    View.ld x1 (Rect.unit (s := S256x2) ![0, 1] S256x1.size inb_S256x2_S256x1_0_1) (ix2 r (0 : Fin 1)) = x1 (ix2 r (1 : Fin 2)) :=
  congrArg x1 (funext fun a => Fin.ext (by
    match a with
    | ⟨0, _⟩ => show 0 + 1 * r.val = r.val; omega
    | ⟨1, _⟩ => rfl))

/-- Row 0 of the resident 2 × 8192 array, read at column `j`. -/
theorem ld_l0 (x2 : Vec F S2x8192 .f32) (j : Fin 8192) :
    View.ld x2 (Rect.unit (s := S2x8192) ![0, 0] S1x8192.size inb_S2x8192_S1x8192_0_0) (ix2 (0 : Fin 1) j) = x2 (ix2 (0 : Fin 2) j) :=
  congrArg x2 (funext fun a => Fin.ext (by
    match a with
    | ⟨0, _⟩ => rfl
    | ⟨1, _⟩ => show 0 + 1 * j.val = j.val; omega))

/-- Row 1 of the resident 2 × 8192 array, read at column `j`. -/
theorem ld_l1 (x2 : Vec F S2x8192 .f32) (j : Fin 8192) :
    View.ld x2 (Rect.unit (s := S2x8192) ![1, 0] S1x8192.size inb_S2x8192_S1x8192_1_0) (ix2 (0 : Fin 1) j) = x2 (ix2 (1 : Fin 2) j) :=
  congrArg x2 (funext fun a => Fin.ext (by
    match a with
    | ⟨0, _⟩ => rfl
    | ⟨1, _⟩ => show 0 + 1 * j.val = j.val; omega))

/-- A 1 × 8192 row spread over 256 rows reads, at `(p, q)`, the row's entry `q`. -/
theorem broadcastTo_row_apply {α : Type} (v : (⟨2, ![1, 8192]⟩ : Shape).Idx → α)
    (h : (⟨2, ![1, 8192]⟩ : Shape).Broadcasts ⟨2, ![256, 8192]⟩) (p : Fin 256) (q : Fin 8192) :
    broadcastTo ⟨2, ![256, 8192]⟩ v h (ix2 p q) = v (ix2 (0 : Fin 1) q) := by
  refine broadcastTo_apply v h (ix2 p q) (ix2 (0 : Fin 1) q) fun ax => ?_
  match ax with
  | ⟨0, _⟩ => rfl
  | ⟨1, _⟩ => show q.val = if (8192 : ℕ) = 1 then 0 else q.val; rw [if_neg (by decide)]

/-- The one index of a 1 × 1 block. -/
theorem idx11 (y : S1x1.Idx) : y = ix2 (0 : Fin 1) (0 : Fin 1) := by
  funext a
  apply Fin.ext
  match a with
  | ⟨0, _⟩ => have h : (y 0).val < 1 := (y 0).isLt; show (y 0).val = 0; omega
  | ⟨1, _⟩ => have h : (y 1).val < 1 := (y 1).isLt; show (y 1).val = 0; omega

/-! ## The point's value at the ideal instance -/

/-- One entry of the 256 × 8192 tile of absolute differences, from its five factors at that index. -/
theorem entry_at (A D0 L0 D1 L1 : FVec Ideal S256x8192 .f32) (i : S256x8192.Idx) (a d0 d1 l0 l1 : EReal)
    (ha : A i = a) (hd0 : D0 i = d0) (hl0 : L0 i = l0) (hd1 : D1 i = d1) (hl1 : L1 i = l1) :
    absf (subf A (addf (mulf D0 L0) (mulf D1 L1))) i = Cert.Spec.entry a d0 d1 l0 l1 := by
  subst ha hd0 hl0 hd1 hl1; rfl

/-- The tile's contribution: the entries added over the tile's 256 rows and all 8192 columns. -/
def tile (x0 : Vec Ideal S256x1 .f32) (x1 : Vec Ideal S256x2 .f32) (x2 : Vec Ideal S2x8192 .f32) : EReal :=
  ∑ r : Fin 256, ∑ j : Fin 8192,
    Cert.Spec.entry (x0 (ix2 r (0 : Fin 1))) (x1 (ix2 r (0 : Fin 2))) (x1 (ix2 r (1 : Fin 2))) (x2 (ix2 (0 : Fin 2) j)) (x2 (ix2 (1 : Fin 2) j))

/-- At the ideal values a point stores the running total plus the tile's contribution: the lane sum of each row, then the
    sum of the 256 row sums, are plain finite sums, and the reductions start from zero. -/
theorem step_apply (x0 : Vec Ideal S256x1 .f32) (x1 : Vec Ideal S256x2 .f32) (x2 : Vec Ideal S2x8192 .f32) (acc : Vec Ideal S1x1 .f32) :
    step (F := Ideal) x0 x1 x2 acc (ix2 (0 : Fin 1) (0 : Fin 1)) = acc (ix2 (0 : Fin 1) (0 : Fin 1)) + tile x0 x1 x2 := by
  unfold step k0_pay2 tile
  dsimp only
  refine (addf_apply _ _ _).trans ?_
  refine congrArg₂ (· + ·) (congrFun (shapeCast_self acc _) _) ?_
  refine (Cert.Lib.Column.shapeCast_a_a1_apply _ _ (0 : Fin 1) (0 : Fin 1)).trans ?_
  refine (Cert.Lib.AxisReads.sum_axis0 _ _ _ _ (0 : Fin 1)).trans ?_
  refine Finset.sum_congr rfl fun r _ => ?_
  refine (Cert.Lib.Column.shapeCast_a_a1_apply _ _ r (0 : Fin 1)).trans ?_
  refine (Cert.Lib.AxisReads.sum_axis1 _ _ _ _ r).trans ?_
  refine Finset.sum_congr rfl fun j _ => ?_
  refine entry_at _ _ _ _ _ (ix2 r j) _ _ _ _ _ ?_ ?_ ?_ ?_ ?_
  · exact (Cert.Lib.Column.broadcastTo_a1_ab_apply _ _ r j).trans ((congrFun (shapeCast_self _ _) _).trans (ld_a x0 r))
  · exact (Cert.Lib.Column.broadcastTo_a1_ab_apply _ _ r j).trans ((congrFun (shapeCast_self _ _) _).trans (ld_d0 x1 r))
  · exact (broadcastTo_row_apply _ _ r j).trans ((congrFun (shapeCast_self _ _) _).trans (ld_l0 x2 j))
  · exact (Cert.Lib.Column.broadcastTo_a1_ab_apply _ _ r j).trans ((congrFun (shapeCast_self _ _) _).trans (ld_d1 x1 r))
  · exact (broadcastTo_row_apply _ _ r j).trans ((congrFun (shapeCast_self _ _) _).trans (ld_l1 x2 j))

/-- The same as an equation of 1 × 1 blocks. -/
theorem step_eq (x0 : Vec Ideal S256x1 .f32) (x1 : Vec Ideal S256x2 .f32) (x2 : Vec Ideal S2x8192 .f32) (acc : Vec Ideal S1x1 .f32) :
    step (F := Ideal) x0 x1 x2 acc = fun _ => acc (ix2 (0 : Fin 1) (0 : Fin 1)) + tile x0 x1 x2 :=
  funext fun y => by rw [idx11 y]; exact step_apply x0 x1 x2 acc

/-- The zero block the first point stores reads the extended real zero. -/
theorem pay1_apply (y : S1x1.Idx) : k0_pay1 (F := Ideal) y = 0 := Ideal.ofBits_zero_f32

end Cert.KernelIdeal.Step

end
-- ==== Proof.KernelBlocks.lean ====
/-
  The input windows' blocks read at an index.

  At grid point `t` the first window holds rows `256 · t, …, 256 · t + 255` of the 8192 × 1 column array, the second
  the same rows of the 8192 × 2 array, and the third the whole 2 × 8192 array (its block index never moves). So entry
  `(r, c)` of the first two blocks is the array at `(256 · t + r, c)`, and the third block is the array itself.
-/
import proofs.«178842_j41944650612977_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The index maps over the grid: the first two windows' block row is the point's number, every other block
    coordinate is zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- Row `r` of the first window's block at point `t` is row `256 · t + r` of the column array. -/
theorem blk_a (c : Dev nD) (t : Fin cfg0.N) (r : Fin 256) (h : 256 * t.val + r.val < 8192) :
    (iblk m c 0 t : Vec F S256x1 .f32) (ix2 r (0 : Fin 1))
      = (V m c main_v14 : S8192x1.Idx → F .f32) (ix2 (⟨256 * t.val + r.val, h⟩ : Fin 8192) (0 : Fin 1)) := by
  obtain ⟨h00, h01, -⟩ := idx_facts t
  unfold iblk
  rw [View.read_apply]
  show V m c main_v14 _ = V m c main_v14 _
  refine congrArg (V m c main_v14) (funext fun a => Fin.ext ?_)
  match a with
  | ⟨0, _⟩ => show win0_0.index t 0 * 256 + 1 * r.val = 256 * t.val + r.val; rw [h00]; omega
  | ⟨1, _⟩ => show win0_0.index t 1 * 1 + 1 * 0 = 0; rw [h01]

/-- Entry `(r, k)` of the second window's block at point `t` is entry `(256 · t + r, k)` of the 8192 × 2 array. -/
theorem blk_d (c : Dev nD) (t : Fin cfg0.N) (r : Fin 256) (k : Fin 2) (h : 256 * t.val + r.val < 8192) :
    (iblk m c 1 t : Vec F S256x2 .f32) (ix2 r k)
      = (V m c main_v12 : S8192x2.Idx → F .f32) (ix2 (⟨256 * t.val + r.val, h⟩ : Fin 8192) k) := by
  obtain ⟨-, -, h10, h11, -⟩ := idx_facts t
  unfold iblk
  rw [View.read_apply]
  show V m c main_v12 _ = V m c main_v12 _
  refine congrArg (V m c main_v12) (funext fun a => Fin.ext ?_)
  match a with
  | ⟨0, _⟩ => show win0_1.index t 0 * 256 + 1 * r.val = 256 * t.val + r.val; rw [h10]; omega
  | ⟨1, _⟩ => show win0_1.index t 1 * 2 + 1 * k.val = k.val; rw [h11]; omega

/-- The third window's block at any point is the 2 × 8192 array. -/
theorem blk_l (c : Dev nD) (t : Fin cfg0.N) (k : Fin 2) (j : Fin 8192) :
    (iblk m c 2 t : Vec F S2x8192 .f32) (ix2 k j) = (V m c main_v13 : S2x8192.Idx → F .f32) (ix2 k j) := by
  obtain ⟨-, -, -, -, h20, h21⟩ := idx_facts t
  unfold iblk
  rw [View.read_apply]
  show V m c main_v13 _ = V m c main_v13 _
  refine congrArg (V m c main_v13) (funext fun a => Fin.ext ?_)
  match a with
  | ⟨0, _⟩ => show win0_2.index t 0 * 2 + 1 * k.val = k.val; rw [h20]; omega
  | ⟨1, _⟩ => show win0_2.index t 1 * 8192 + 1 * j.val = j.val; rw [h21]; omega

end Cert.KernelIdeal.Blocks

end
-- ==== Proof.KernelAcc.lean ====
/-
  The running total across the grid.

  The output's 1 × 1 block is zeroed at the first point and is never written back until the last, so after point `n`
  it holds the sum of the tile contributions of points `0, …, n` (`outsAt_eq`, by induction on the point: the first
  point leaves `0 + T 0`, a later point adds `T n` to what the point before left). A tile's contribution, written over
  the three arrays the region finds, is `Spec.tileSum` of them at the point's number (`tile_eq`): the first two
  windows' rows at point `t` are rows `256 · t + r` of their arrays and the third window is its whole array.
-/
import proofs.«178842_j41944650612977_1_alg».proof.Proof.KernelStep
import proofs.«178842_j41944650612977_1_alg».proof.Proof.KernelBlocks

noncomputable section

open Idealize.ShloMosaic Idealize.ShloMosaic.TcCoe Idealize.SL.Sem Idealize.ShloMosaic.ValueIdx

namespace Cert.KernelIdeal.Acc

open Cert.KernelIdeal Cert.KernelIdeal.Gen Cert.KernelIdeal.Step

variable (m : (ℓ : Loc nD τ sig) → Buf (Elt Ideal) ℓ)

/-- Point `k`'s tile contribution (zero past the grid's end, so that it can be summed over a range of numbers). -/
def contrib (c : Dev nD) (k : ℕ) : EReal :=
  if h : k < cfg0.N then tile (iblk m c 0 ⟨k, h⟩) (iblk m c 1 ⟨k, h⟩) (iblk m c 2 ⟨k, h⟩) else 0

theorem contrib_of_lt (c : Dev nD) (k : ℕ) (h : k < cfg0.N) :
    contrib m c k = tile (iblk m c 0 ⟨k, h⟩) (iblk m c 1 ⟨k, h⟩) (iblk m c 2 ⟨k, h⟩) := dif_pos h

/-- After point `n` the output's block holds the contributions of points `0, …, n` added. -/
theorem outsAt_eq (c : Dev nD) : ∀ (n : ℕ) (h : n < cfg0.N),
    outsAt0 m c n h = fun _ => ∑ k ∈ Finset.range (n + 1), contrib m c k
  | 0, h => by
    rw [outsAt0_A m c ⟨0, h⟩ rfl, out_first, step_eq]
    funext _
    rw [pay1_apply, zero_add, Finset.sum_range_one, contrib_of_lt m c 0 h]
  | n + 1, h => by
    have hN : cfg0.N = 32 := N_0
    have hB : ¬(⟨n + 1, h⟩ : Fin cfg0.N).val % 32 = 0 := by dsimp only; omega
    rw [outsAt0_B m c ⟨n + 1, h⟩ hB, out_later, step_eq]
    funext _
    show outsAt0 m c n _ _ + _ = _
    rw [outsAt_eq c n, Finset.sum_range_succ _ (n + 1), contrib_of_lt m c (n + 1) h]

theorem entry_congr {a a' d0 d0' d1 d1' l0 l0' l1 l1' : EReal} (h1 : a = a') (h2 : d0 = d0') (h3 : d1 = d1')
    (h4 : l0 = l0') (h5 : l1 = l1') : Cert.Spec.entry a d0 d1 l0 l1 = Cert.Spec.entry a' d0' d1' l0' l1' := by
  subst h1 h2 h3 h4 h5; rfl

/-- A point's contribution over the arrays the region finds: if the column array reads `A`, the 8192 × 2 array `D` and
    the 2 × 8192 array the transpose of `L`, the contribution of point `t` is `Spec.tileSum A D L t`. -/
theorem tile_eq (c : Dev nD) (A : Cert.Spec.I1 → EReal) (D L : Cert.Spec.I2 → EReal)
    (hA : ∀ i : Fin 8192, (V m c main_v14 : S8192x1.Idx → EReal) (ix2 i (0 : Fin 1)) = A (ix1 i))
    (hD : ∀ (i : Fin 8192) (k : Fin 2), (V m c main_v12 : S8192x2.Idx → EReal) (ix2 i k) = D (ix2 i k))
    (hL : ∀ (k : Fin 2) (j : Fin 8192), (V m c main_v13 : S2x8192.Idx → EReal) (ix2 k j) = L (ix2 j k))
    (t : Fin cfg0.N) :
    tile (iblk m c 0 t) (iblk m c 1 t) (iblk m c 2 t) = Cert.Spec.tileSum A D L t.val := by
  have hN : t.val < 32 := lt_of_lt_of_eq t.isLt (show cfg0.N = 32 from N_0)
  unfold tile Cert.Spec.tileSum
  refine Finset.sum_congr rfl fun r _ => ?_
  have hr : 256 * t.val + r.val < 8192 := by have := r.isLt; omega
  rw [Cert.Spec.rowSumN_of_lt A D L _ hr]
  unfold Cert.Spec.rowSum
  refine Finset.sum_congr rfl fun j _ => ?_
  exact entry_congr ((Blocks.blk_a m c t r hr).trans (hA _))
    ((Blocks.blk_d m c t r 0 hr).trans (hD _ _)) ((Blocks.blk_d m c t r 1 hr).trans (hD _ _))
    ((Blocks.blk_l m c t 0 j).trans (hL _ _)) ((Blocks.blk_l m c t 1 j).trans (hL _ _))

/-- So the contributions of all 32 points add up to the sum of all entries. -/
theorem total_eq (c : Dev nD) (A : Cert.Spec.I1 → EReal) (D L : Cert.Spec.I2 → EReal)
    (hA : ∀ i : Fin 8192, (V m c main_v14 : S8192x1.Idx → EReal) (ix2 i (0 : Fin 1)) = A (ix1 i))
    (hD : ∀ (i : Fin 8192) (k : Fin 2), (V m c main_v12 : S8192x2.Idx → EReal) (ix2 i k) = D (ix2 i k))
    (hL : ∀ (k : Fin 2) (j : Fin 8192), (V m c main_v13 : S2x8192.Idx → EReal) (ix2 k j) = L (ix2 j k)) :
    ∑ k ∈ Finset.range 32, contrib m c k = Cert.Spec.pairSum A D L := by
  rw [Cert.Spec.pairSum_eq_tiles]
  refine Finset.sum_congr rfl fun k hk => ?_
  have hk' : k < cfg0.N := lt_of_lt_of_eq (Finset.mem_range.mp hk) (show 32 = cfg0.N from N_0.symm)
  rw [contrib_of_lt m c k hk']
  exact tile_eq m c A D L hA hD hL ⟨k, hk'⟩

end Cert.KernelIdeal.Acc

end
-- ==== Proof.KernelHost.lean ====
/-
  The three arrays the region finds, as functions of the program's arguments.

  Before the region the host computes, from the arguments `s`, `class_w`, `t`: the log-softmax `L` of `s` and its
  exponential `P`; the clamped one-hot of `t` scaled by `class_w`, `Q`; `D = P - Q`; the row sums
  `A = ∑ (P · L - Q · log Q)`; and it hands the region `A` as an 8192 × 1 column, `D`, and the transpose of `L`. The
  reference program computes the same `A`, `D`, `L` by the same operations, which are named there stage by stage; the
  host operations are read here in three stretches, each from arbitrary contents, so that no composed term is ever
  formed, and the three arrays are stated by the reference's stages: `V_a`, `V_d`, `V_l`.
-/
import proofs.«178842_j41944650612977_1_alg».proof.Proof.Gen.KernelIdeal.Frame
import proofs.«178842_j41944650612977_1_alg».proof.Proof.RefRead
import proofs.«178842_j41944650612977_1_alg».proof.Proof.LibColumn
import Idealize.ShloMosaic.Lib.Pipeline.Value
import Idealize.ShloMosaic.Lib.Pipeline.Frame
import Idealize.ShloMosaic.Lib.StableHlo.Run
import Idealize.ShloMosaic.Lib.ValueLayout

noncomputable section

open Idealize.ShloMosaic Idealize.ShloMosaic.TcCoe Idealize.SL.Sem Idealize.ShloMosaic.StableHlo Idealize.ShloMosaic.ValueIdx

namespace Cert.KernelIdeal.HostPre

open Cert.KernelIdeal Cert.KernelIdeal.Gen
open Cert.ReferenceIdeal.ReadP (val_main_v5 val_main_v6 val_main_v1 val_main_v11 val_main_v12)

variable {F : FTy → Type} [FloatOps F]

/-- The first stretch: the log-softmax and its exponential (16 operations). -/
abbrev opsL : List (HloOp τ sig (Elt F)) := hostOps0 ++ hostOps0_1
/-- The second stretch: the one-hot, the two clamp bounds, the clamp (14 operations). -/
abbrev opsQ : List (HloOp τ sig (Elt F)) := hostOps0_2 ++ hostOps0_3 ++ hostOps0_4

/-- The log-softmax of the first argument, as the first stretch leaves it. -/
theorem opsL_v0 (W : Valuation τ sig (Elt F)) :
    after opsL W (Proc.devRef .tc main_v0) = val_main_v5 (F := F) (W (Proc.devRef .tc main_arg0)) := by
  simp only [opsL, hostOps0, hostOps0_1, List.cons_append, List.nil_append]
  after_results
  simp only [cast_eq]
  rfl

/-- Its exponential. -/
theorem opsL_v1 (W : Valuation τ sig (Elt F)) :
    after opsL W (Proc.devRef .tc main_v1) = val_main_v6 (F := F) (W (Proc.devRef .tc main_arg0)) := by
  simp only [opsL, hostOps0, hostOps0_1, List.cons_append, List.nil_append]
  after_results
  simp only [cast_eq]
  rfl

/-- The first stretch writes neither of the other two arguments. -/
theorem opsL_arg1 (W : Valuation τ sig (Elt F)) :
    after opsL W (Proc.devRef .tc main_arg1) = W (Proc.devRef .tc main_arg1) := by
  simp only [opsL, hostOps0, hostOps0_1, List.cons_append, List.nil_append]
  after_results
theorem opsL_arg2 (W : Valuation τ sig (Elt F)) :
    after opsL W (Proc.devRef .tc main_arg2) = W (Proc.devRef .tc main_arg2) := by
  simp only [opsL, hostOps0, hostOps0_1, List.cons_append, List.nil_append]
  after_results

/-- The clamped one-hot of the third argument, as the second stretch leaves it. -/
theorem opsQ_v3 (W : Valuation τ sig (Elt F)) :
    after opsQ W (Proc.devRef .tc main_v3) = val_main_v1 (F := F) (W (Proc.devRef .tc main_arg2)) := by
  simp only [opsQ, hostOps0_2, hostOps0_3, hostOps0_4, List.cons_append, List.nil_append]
  after_results
  simp only [cast_eq]
  rfl

/-- The second stretch writes none of the log-softmax, its exponential, the second argument. -/
theorem opsQ_v0 (W : Valuation τ sig (Elt F)) :
    after opsQ W (Proc.devRef .tc main_v0) = W (Proc.devRef .tc main_v0) := by
  simp only [opsQ, hostOps0_2, hostOps0_3, hostOps0_4, List.cons_append, List.nil_append]
  after_results
theorem opsQ_v1 (W : Valuation τ sig (Elt F)) :
    after opsQ W (Proc.devRef .tc main_v1) = W (Proc.devRef .tc main_v1) := by
  simp only [opsQ, hostOps0_2, hostOps0_3, hostOps0_4, List.cons_append, List.nil_append]
  after_results
theorem opsQ_arg1 (W : Valuation τ sig (Elt F)) :
    after opsQ W (Proc.devRef .tc main_arg1) = W (Proc.devRef .tc main_arg1) := by
  simp only [opsQ, hostOps0_2, hostOps0_3, hostOps0_4, List.cons_append, List.nil_append]
  after_results

/-! ## The third stretch: from the log-softmax, its exponential, the clamped one-hot and the class weights -/

variable (W : Valuation τ sig (Elt F))
variable (x0 : (⟨Cert.ReferenceIdeal.S8192x2, .f32⟩ : BufTy).Contents (Elt F)) (x1 : (⟨Cert.ReferenceIdeal.S2, .f32⟩ : BufTy).Contents (Elt F))
  (x2 : (⟨Cert.ReferenceIdeal.S8192, .i32⟩ : BufTy).Contents (Elt F))

/-- `D = P - Q`. -/
theorem ops5_v12 (h0 : W (Proc.devRef .tc main_v0) = val_main_v5 (F := F) x0) (h1 : W (Proc.devRef .tc main_v1) = val_main_v6 (F := F) x0)
    (h3 : W (Proc.devRef .tc main_v3) = val_main_v1 (F := F) x2) (ha : W (Proc.devRef .tc main_arg1) = x1) :
    after hostOps0_5 W (Proc.devRef .tc main_v12) = val_main_v12 (F := F) x0 x1 x2 := by
  after_results
  rw [h1, h3, ha]
  rfl

/-- The transpose of `L`. -/
theorem ops5_v13 (h0 : W (Proc.devRef .tc main_v0) = val_main_v5 (F := F) x0) :
    after hostOps0_5 W (Proc.devRef .tc main_v13) = transpose S2x8192 [1, 0] (val_main_v5 (F := F) x0) transposes_S8192x2_S2x8192_1_0 := by
  after_results
  rw [h0]

/-- The row sums `A`, laid as a column. -/
theorem ops5_v14 (h0 : W (Proc.devRef .tc main_v0) = val_main_v5 (F := F) x0) (h1 : W (Proc.devRef .tc main_v1) = val_main_v6 (F := F) x0)
    (h3 : W (Proc.devRef .tc main_v3) = val_main_v1 (F := F) x2) (ha : W (Proc.devRef .tc main_arg1) = x1) :
    after hostOps0_5 W (Proc.devRef .tc main_v14) = shapeCast S8192x1 (val_main_v11 (F := F) x0 x1 x2) shapeCasts_S8192_S8192x1 := by
  after_results
  rw [h0, h1, h3, ha]
  rfl

/-! ## The arrays the region finds -/

variable (m : (ℓ : Loc nD τ sig) → Buf (Elt F) ℓ)

/-- The host operations before the region, as the three stretches one after the other. -/
theorem V0_eq (c : Dev nD) :
    V0 m c = after hostOps0_5 (after opsQ (after opsL (launchContents m c))) := by
  show StableHlo.after (List.flatten [hostOps0, hostOps0_1, hostOps0_2, hostOps0_3, hostOps0_4, hostOps0_5]) _ = _
  simp only [opsL, opsQ, List.flatten_cons, List.flatten_nil, List.append_nil, StableHlo.after_append]

section
variable (c : Dev nD)

theorem pre_v0 : after opsQ (after opsL (launchContents m c)) (Proc.devRef .tc main_v0)
    = val_main_v5 (F := F) (m ((c.tc : Thread nD τ).loc main_arg0)) := (opsQ_v0 _).trans (opsL_v0 _)
theorem pre_v1 : after opsQ (after opsL (launchContents m c)) (Proc.devRef .tc main_v1)
    = val_main_v6 (F := F) (m ((c.tc : Thread nD τ).loc main_arg0)) := (opsQ_v1 _).trans (opsL_v1 _)
theorem pre_v3 : after opsQ (after opsL (launchContents m c)) (Proc.devRef .tc main_v3)
    = val_main_v1 (F := F) (m ((c.tc : Thread nD τ).loc main_arg2)) := (opsQ_v3 _).trans (congrArg _ (opsL_arg2 _))
theorem pre_arg1 : after opsQ (after opsL (launchContents m c)) (Proc.devRef .tc main_arg1)
    = m ((c.tc : Thread nD τ).loc main_arg1) := (opsQ_arg1 _).trans (opsL_arg1 _)

/-- The 8192 × 2 array the second window stages is the reference's `D`. -/
theorem V_d : V m c main_v12 = val_main_v12 (F := F) (m ((c.tc : Thread nD τ).loc main_arg0)) (m ((c.tc : Thread nD τ).loc main_arg1)) (m ((c.tc : Thread nD τ).loc main_arg2)) := by
  show V0 m c (Proc.devRef .tc main_v12) = _
  rw [V0_eq]
  exact ops5_v12 _ _ _ _ (pre_v0 m c) (pre_v1 m c) (pre_v3 m c) (pre_arg1 m c)

/-- The 2 × 8192 array the third window stages is the transpose of the reference's `L`. -/
theorem V_l : V m c main_v13 = transpose S2x8192 [1, 0] (val_main_v5 (F := F) (m ((c.tc : Thread nD τ).loc main_arg0))) transposes_S8192x2_S2x8192_1_0 := by
  show V0 m c (Proc.devRef .tc main_v13) = _
  rw [V0_eq]
  exact ops5_v13 _ _ (pre_v0 m c)

/-- The 8192 × 1 array the first window stages is the reference's `A` as a column. -/
theorem V_a : V m c main_v14 = shapeCast S8192x1 (val_main_v11 (F := F) (m ((c.tc : Thread nD τ).loc main_arg0)) (m ((c.tc : Thread nD τ).loc main_arg1)) (m ((c.tc : Thread nD τ).loc main_arg2))) shapeCasts_S8192_S8192x1 := by
  show V0 m c (Proc.devRef .tc main_v14) = _
  rw [V0_eq]
  exact ops5_v14 _ _ _ _ (pre_v0 m c) (pre_v1 m c) (pre_v3 m c) (pre_arg1 m c)

/-- Read at an index: the column at row `i` is `A i`; -/
theorem V_a_apply (i : Fin 8192) :
    (V m c main_v14 : S8192x1.Idx → F .f32) (ix2 i (0 : Fin 1))
      = val_main_v11 (F := F) (m ((c.tc : Thread nD τ).loc main_arg0)) (m ((c.tc : Thread nD τ).loc main_arg1)) (m ((c.tc : Thread nD τ).loc main_arg2)) (ix1 i) := by
  rw [V_a]
  exact Cert.Lib.Column.shapeCast_a_a1_apply _ _ i (0 : Fin 1)

/-- the transposed array at `(k, j)` is `L (j, k)`. -/
theorem V_l_apply (k : Fin 2) (j : Fin 8192) :
    (V m c main_v13 : S2x8192.Idx → F .f32) (ix2 k j) = val_main_v5 (F := F) (m ((c.tc : Thread nD τ).loc main_arg0)) (ix2 j k) := by
  rw [V_l]
  exact transpose_ix2_apply _ _ k j

end

end Cert.KernelIdeal.HostPre

end
-- ==== Proof.KernelFinal.lean ====
/-
  The kernel's program, run: its result is the loss of the three arrays the region finds.

  The output window's one block is the whole 1 × 1 result array and is written back once, after the last point, holding the
  contributions of all 32 points added (`final_total`); the two host lines after the region add the small constant and divide by
  the number of pairs (`tail_eq`). With the contributions summed to `Spec.pairSum` of the arrays `A`, `D`, `L` the host
  computed before the region, the program's result is `Spec.loss A D L` (`run`).
-/
import proofs.«178842_j41944650612977_1_alg».proof.Proof.KernelAcc
import proofs.«178842_j41944650612977_1_alg».proof.Proof.KernelHost
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen
open Cert.ReferenceIdeal.ReadP (val_main_v5 val_main_v11 val_main_v12)

variable (m : (ℓ : Loc nD τ sig) → Buf (Elt Ideal) ℓ) (ρ : Dev nD → PrngReg)

/-- The last grid point. -/
abbrev tLast : Fin cfg0.N := ⟨31, by decide⟩

/-- The contributions of all 32 points added, as contents of the 1 × 1 result array. -/
def total (c : Dev nD) : Buf (Elt Ideal) ((c : Thread nD τ).loc main_v15) :=
  fun _ => (∑ k ∈ Finset.range 32, Acc.contrib m c k : EReal)

/-- The one write-back, after the last point, writes the total. -/
theorem flushed_eq (c : Dev nD) (t : Fin cfg0.N) (hf : (cfg0.win 3).flush t = true) :
    (dats m 0 c).flushed 3 t = ((cfg0.win 3).blk t).view.read (Elt Ideal) (total m c) := by
  have hN : cfg0.N = 32 := N_0
  have h31 : t.val = 31 := by have := (flush0_3 t).mp hf; have := t.isLt; omega
  obtain rfl : t = tLast := Fin.ext h31
  show (cfg0.win 3).cut (grid0.coords tLast) ((dats m 0 c).after 3 tLast) = _
  rw [after0_3, Acc.outsAt_eq]
  rfl

/-- So the result array ends holding the total: the last point's block is the whole array. -/
theorem final_total (c : Dev nD) : (dats m 0 c).arrAt 3 cfg0.N = total m c :=
  (dats m 0 c).arrAt_eq_of_cover 3 (total m c) (flushed_eq m c) fun i =>
    ⟨tLast, (flush0_3 tLast).mpr rfl, by
      show i ∈ ((View.whole main_v15).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The two host lines after the region: the small constant is added to the total and the sum divided by the number of pairs. -/
theorem tail_eq (c : Dev nD) :
    Pipeline.afterTail₀ cfgs (dats m) 0 (V0 m) [hostOps1] c main_v18
      = fun _ => Ideal.div (Ideal.ofBits .f32 0x38D1B717#32 + ∑ k ∈ Finset.range 32, Acc.contrib m c k) (Ideal.ofBits .f32 0x4C800000#32) := by
  unfold Pipeline.afterTail₀
  show StableHlo.after hostOps1 _ (Proc.devRef .tc main_v18) = _
  after_results
  have e : Pipeline.withArrays (cfgs 0).spec c (V0 m c) (fun w => (dats m 0 c).arrAt w (cfgs 0).N) (Proc.devRef .tc main_v15)
      = total m c := (Pipeline.withArrays_arr spec0 launch0.win.arr_inj c _ _ 3).trans (final_total m c)
  rw [e]
  funext i
  rfl

/-- The kernel's program, run at the ideal values: its result is the loss of the arrays `A`, `D`, `L` the host computes from
    the arguments (named by the reference's stages), and the arguments end unchanged. -/
theorem run : θ_run defs (onTc (τ := τ) (main (F := Ideal))) ⟨m, fun _ => 0, ρ⟩ fun r => ∀ c : Dev nD,
      r.2.mem ((c.tc : Thread nD τ).loc main_v18)
        = (fun _ => Cert.Spec.loss
            (val_main_v11 (F := Ideal) (m ((c.tc : Thread nD τ).loc main_arg0)) (m ((c.tc : Thread nD τ).loc main_arg1)) (m ((c.tc : Thread nD τ).loc main_arg2)))
            (val_main_v12 (F := Ideal) (m ((c.tc : Thread nD τ).loc main_arg0)) (m ((c.tc : Thread nD τ).loc main_arg1)) (m ((c.tc : Thread nD τ).loc main_arg2)))
            (val_main_v5 (F := Ideal) (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨?_,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩)
    (run_main m ρ)
  refine ((h c).2 main_v18 (Pipeline.mem_restRefs_of main_v18 (by decide) (by decide))).trans ?_
  rw [tail_eq]
  funext _
  unfold Cert.Spec.loss
  rw [Acc.total_eq m c _ _ _ (HostPre.V_a_apply m c) (fun i k => congrFun (HostPre.V_d m c) (ix2 i k)) (HostPre.V_l_apply m c)]

end Cert.KernelIdeal.Final

end
-- ==== Proof.RefRun.lean ====
/-
  The reference program's run, read in three stages.

  @main is a straight line of 51 tensor operations. Written as three consecutive lists — the 17 operations that end in
  the clipped, weighted one-hot array (`main_v4`), the 15 operations of the log-softmax (`main_v5`), and the 19
  operations from there to the scalar result (`main_v20`) — the contents of the buffers after the whole line is the
  fold of the third list over the fold of the second over the fold of the first. Each stage's result buffer holds the
  value the read stages (`ReadP.val_…`) name, as a function of what the stage found in the buffers it reads, and each
  stage leaves the three argument buffers as they were; composing the three gives the result buffer at
  `ReadP.val_main_v20` of the three arguments' launch contents, the arguments unchanged.
-/
import proofs.«178842_j41944650612977_1_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1–17: the one-hot encoding of the labels (6 operations), the two clipping constants, the clip of
    the encoding between them (6 operations), the weights broadcast to every row, and the product: ends writing `main_v4`. -/
abbrev opsQ : List (HloOp τ sig (Elt F)) :=
  [ TRef.unary (TRef.of (T := ⟨S8192, .i32⟩) main_arg2) (TRef.of (T := ⟨S8192x1, .i32⟩) main_call0_v0) (broadcastInDim S8192x1 ![0] bcast_S8192_S8192x1_0),
    TRef.nullary (TRef.of (T := ⟨S1x2, .i32⟩) main_call0_v1) (iotaInDim S1x2 32 1),
    TRef.unary (TRef.of (T := ⟨S8192x1, .i32⟩) main_call0_v0) (TRef.of (T := ⟨S8192x2, .i32⟩) main_call0_v2) (broadcastInDim S8192x2 ![0, 1] bcast_S8192x1_S8192x2_0_1),
    TRef.unary (TRef.of (T := ⟨S1x2, .i32⟩) main_call0_v1) (TRef.of (T := ⟨S8192x2, .i32⟩) main_call0_v3) (broadcastInDim S8192x2 ![0, 1] bcast_S1x2_S8192x2_0_1),
    TRef.binary (TRef.of (T := ⟨S8192x2, .i32⟩) main_call0_v2) (TRef.of (T := ⟨S8192x2, .i32⟩) main_call0_v3) (TRef.of (T := ⟨S8192x2, .i1⟩) main_call0_v4) (cmpi .eq),
    TRef.unary (TRef.of (T := ⟨S8192x2, .i1⟩) main_call0_v4) (TRef.of (T := ⟨S8192x2, .f32⟩) main_v0) (uitofp .f32),
    nullary main_cst (constant S_ .f32 0x38D1B717#32),
    nullary main_cst_0 (constant S_ .f32 0x3F800000#32),
    TRef.unary (TRef.of (T := ⟨S_, .f32⟩) main_cst) (TRef.of (T := ⟨S_, .f32⟩) main_call1_v0) id,
    TRef.unary (TRef.of (T := ⟨S_, .f32⟩) main_call1_v0) (TRef.of (T := ⟨S8192x2, .f32⟩) main_call1_v1) (broadcastInDim S8192x2 ![] bcast_S_S8192x2),
    TRef.binary (TRef.of (T := ⟨S8192x2, .f32⟩) main_call1_v1) (TRef.of (T := ⟨S8192x2, .f32⟩) main_v0) (TRef.of (T := ⟨S8192x2, .f32⟩) main_call1_v2) maximumf,
    TRef.unary (TRef.of (T := ⟨S_, .f32⟩) main_cst_0) (TRef.of (T := ⟨S_, .f32⟩) main_call1_v3) id,
    TRef.unary (TRef.of (T := ⟨S_, .f32⟩) main_call1_v3) (TRef.of (T := ⟨S8192x2, .f32⟩) main_call1_v4) (broadcastInDim S8192x2 ![] bcast_S_S8192x2),
    TRef.binary (TRef.of (T := ⟨S8192x2, .f32⟩) main_call1_v4) (TRef.of (T := ⟨S8192x2, .f32⟩) main_call1_v2) (TRef.of (T := ⟨S8192x2, .f32⟩) main_v1) minimumf,
    unary main_arg1 main_v2 (broadcastInDim S1x2 ![1] bcast_S2_S1x2_1 : (⟨S2, .f32⟩ : BufTy).Contents (Elt F) → (⟨S1x2, .f32⟩ : BufTy).Contents (Elt F)),
    unary main_v2 main_v3 (broadcastInDim S8192x2 ![0, 1] bcast_S1x2_S8192x2_0_1 : (⟨S1x2, .f32⟩ : BufTy).Contents (Elt F) → (⟨S8192x2, .f32⟩ : BufTy).Contents (Elt F)),
    binary main_v1 main_v3 main_v4 (mulf : (⟨S8192x2, .f32⟩ : BufTy).Contents (Elt F) → (⟨S8192x2, .f32⟩ : BufTy).Contents (Elt F) → (⟨S8192x2, .f32⟩ : BufTy).Contents (Elt F)) ]

/-- Operations 18–32: the log-softmax of the first argument along its rows (row maximum, shift, exponential, row sum,
    logarithm, subtraction): ends writing `main_v5`. -/
abbrev opsL : List (HloOp τ sig (Elt F)) :=
  [ TRef.nullary (TRef.of (T := ⟨S_, .f32⟩) main_call2_cst) (constant S_ .f32 0xFF800000#32),
    TRef.binary (TRef.of (T := ⟨S8192x2, .f32⟩) main_arg0) (TRef.of (T := ⟨S_, .f32⟩) main_call2_cst) (TRef.of (T := ⟨S8192, .f32⟩) main_call2_v0) (fun x v => Host.reduce FloatOps.maximumf x v reducesTo_S8192x2_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x2, .f32⟩) main_call2_v4) (broadcastInDim S8192x2 ![0, 1] bcast_S8192x1_S8192x2_0_1),
    TRef.binary (TRef.of (T := ⟨S8192x2, .f32⟩) main_arg0) (TRef.of (T := ⟨S8192x2, .f32⟩) main_call2_v4) (TRef.of (T := ⟨S8192x2, .f32⟩) main_call2_v5) subf,
    TRef.unary (TRef.of (T := ⟨S8192x2, .f32⟩) main_call2_v5) (TRef.of (T := ⟨S8192x2, .f32⟩) main_call2_v6) Host.exp,
    TRef.nullary (TRef.of (T := ⟨S_, .f32⟩) main_call2_cst_1) (constant S_ .f32 0x00000000#32),
    TRef.binary (TRef.of (T := ⟨S8192x2, .f32⟩) main_call2_v6) (TRef.of (T := ⟨S_, .f32⟩) main_call2_cst_1) (TRef.of (T := ⟨S8192, .f32⟩) main_call2_v7) (fun x v => Host.reduceAdd x v reducesTo_S8192x2_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x2, .f32⟩) main_call2_v10) (broadcastInDim S8192x2 ![0, 1] bcast_S8192x1_S8192x2_0_1),
    TRef.binary (TRef.of (T := ⟨S8192x2, .f32⟩) main_call2_v5) (TRef.of (T := ⟨S8192x2, .f32⟩) main_call2_v10) (TRef.of (T := ⟨S8192x2, .f32⟩) main_v5) subf ]

/-- Operations 33–51: from the two arrays `main_v4` and `main_v5` to the scalar: the per-row sums, the pairwise
    products, the absolute differences, their total, the added constant and the division: ends writing `main_v20`. -/
abbrev opsT : List (HloOp τ sig (Elt F)) :=
  [ unary main_v5 main_v6 (Host.exp : (⟨S8192x2, .f32⟩ : BufTy).Contents (Elt F) → (⟨S8192x2, .f32⟩ : BufTy).Contents (Elt F)),
    binary main_v6 main_v5 main_v7 (mulf : (⟨S8192x2, .f32⟩ : BufTy).Contents (Elt F) → (⟨S8192x2, .f32⟩ : BufTy).Contents (Elt F) → (⟨S8192x2, .f32⟩ : BufTy).Contents (Elt F)),
    unary main_v4 main_v8 (Host.log : (⟨S8192x2, .f32⟩ : BufTy).Contents (Elt F) → (⟨S8192x2, .f32⟩ : BufTy).Contents (Elt F)),
    binary main_v4 main_v8 main_v9 (mulf : (⟨S8192x2, .f32⟩ : BufTy).Contents (Elt F) → (⟨S8192x2, .f32⟩ : BufTy).Contents (Elt F) → (⟨S8192x2, .f32⟩ : BufTy).Contents (Elt F)),
    binary main_v7 main_v9 main_v10 (subf : (⟨S8192x2, .f32⟩ : BufTy).Contents (Elt F) → (⟨S8192x2, .f32⟩ : BufTy).Contents (Elt F) → (⟨S8192x2, .f32⟩ : BufTy).Contents (Elt F)),
    nullary main_cst_1 (constant S_ .f32 0x00000000#32),
    binary main_v10 main_cst_1 main_v11 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    binary main_v6 main_v4 main_v12 (subf : (⟨S8192x2, .f32⟩ : BufTy).Contents (Elt F) → (⟨S8192x2, .f32⟩ : BufTy).Contents (Elt F) → (⟨S8192x2, .f32⟩ : BufTy).Contents (Elt F)),
    unary main_v11 main_v13 (broadcastInDim S8192x1 ![0] bcast_S8192_S8192x1_0 : (⟨S8192, .f32⟩ : BufTy).Contents (Elt F) → (⟨S8192x1, .f32⟩ : BufTy).Contents (Elt F)),
    binary main_v12 main_v5 main_v14 ((fun l r => Host.dotGeneral dot_S8192x2_S8192x2_S8192x8192_1_1_0_0_n_n none l r) : (⟨S8192x2, .f32⟩ : BufTy).Contents (Elt F) → (⟨S8192x2, .f32⟩ : BufTy).Contents (Elt F) → (⟨S8192x8192, .f32⟩ : BufTy).Contents (Elt F)),
    unary main_v13 main_v15 (broadcastInDim S8192x8192 ![0, 1] bcast_S8192x1_S8192x8192_0_1 : (⟨S8192x1, .f32⟩ : BufTy).Contents (Elt F) → (⟨S8192x8192, .f32⟩ : BufTy).Contents (Elt F)),
    binary main_v15 main_v14 main_v16 (subf : (⟨S8192x8192, .f32⟩ : BufTy).Contents (Elt F) → (⟨S8192x8192, .f32⟩ : BufTy).Contents (Elt F) → (⟨S8192x8192, .f32⟩ : BufTy).Contents (Elt F)),
    unary main_v16 main_v17 (Host.absf : (⟨S8192x8192, .f32⟩ : BufTy).Contents (Elt F) → (⟨S8192x8192, .f32⟩ : BufTy).Contents (Elt F)),
    nullary main_cst_2 (constant S_ .f32 0x00000000#32),
    binary main_v17 main_cst_2 main_v18 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    nullary main_cst_3 (constant S_ .f32 0x38D1B717#32),
    binary main_cst_3 main_v18 main_v19 (addf : (⟨S_, .f32⟩ : BufTy).Contents (Elt F) → (⟨S_, .f32⟩ : BufTy).Contents (Elt F) → (⟨S_, .f32⟩ : BufTy).Contents (Elt F)),
    nullary main_cst_4 (constant S_ .f32 0x4C800000#32),
    binary main_v19 main_cst_4 main_v20 (Host.divf : (⟨S_, .f32⟩ : BufTy).Contents (Elt F) → (⟨S_, .f32⟩ : BufTy).Contents (Elt F) → (⟨S_, .f32⟩ : BufTy).Contents (Elt F)) ]

/-- @main's 51 operations, in order. -/
abbrev ops : List (HloOp τ sig (Elt F)) := opsQ ++ opsL ++ opsT

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem opsQ_sub : (opsQ : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., unary_bufs_sub .., binary_bufs_sub ..⟩
theorem opsL_sub : (opsL : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem opsT_sub : (opsT : List (HloOp τ sig (Elt F))).Forall fun op => op.bufs ⊆ tcRefs τ sig :=
  ⟨unary_bufs_sub .., binary_bufs_sub .., unary_bufs_sub .., binary_bufs_sub .., binary_bufs_sub .., nullary_bufs_sub .., binary_bufs_sub .., binary_bufs_sub .., unary_bufs_sub .., binary_bufs_sub .., unary_bufs_sub .., binary_bufs_sub .., unary_bufs_sub .., nullary_bufs_sub .., binary_bufs_sub .., nullary_bufs_sub .., binary_bufs_sub .., nullary_bufs_sub .., binary_bufs_sub ..⟩

/-- Every operation of the line touches TensorCore buffers only. -/
theorem ops_sub : (ops : List (HloOp τ sig (Elt F))).Forall fun op => op.bufs ⊆ tcRefs τ sig :=
  List.forall_iff_forall_mem.mpr fun op h => by
    rcases List.mem_append.mp h with h | h
    · rcases List.mem_append.mp h with h | h
      · exact List.forall_iff_forall_mem.mp opsQ_sub op h
      · exact List.forall_iff_forall_mem.mp opsL_sub op h
    · exact List.forall_iff_forall_mem.mp opsT_sub op h

/-- The fold over a concatenation is the fold over the second list from the fold over the first. -/
theorem after_concat (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons]; exact ih _

section Stages

variable (W : Valuation τ sig (Elt F))

/-- Stage 1: after operations 1–17 `main_v4` holds the clipped one-hot array times the weights, of the second and third
    arguments. -/
theorem opsQ_v4 : after opsQ W (Proc.devRef .tc main_v4)
    = ReadP.val_main_v4 (F := F) (W (Proc.devRef .tc main_arg1)) (W (Proc.devRef .tc main_arg2)) := by
  after_results <;> rfl
/-- Stage 1 writes none of the arguments. -/
theorem opsQ_arg0 : after opsQ W (Proc.devRef .tc main_arg0) = W (Proc.devRef .tc main_arg0) := by
  after_results <;> rfl
theorem opsQ_arg1 : after opsQ W (Proc.devRef .tc main_arg1) = W (Proc.devRef .tc main_arg1) := by
  after_results <;> rfl
theorem opsQ_arg2 : after opsQ W (Proc.devRef .tc main_arg2) = W (Proc.devRef .tc main_arg2) := by
  after_results <;> rfl

/-- Stage 2: after operations 18–32 `main_v5` holds the log-softmax of the first argument. (A called function's operation
    moves each operand and its result along an equality between a buffer's type and the tensor type it carries; at these
    buffers the two types are the same, so each move is the identity, and it is removed before the two sides are compared.) -/
theorem opsL_v5 : after opsL W (Proc.devRef .tc main_v5)
    = ReadP.val_main_v5 (F := F) (W (Proc.devRef .tc main_arg0)) := by
  after_results
  simp only [cast_eq] <;> rfl
/-- Stage 2 writes neither stage 1's result nor an argument. -/
theorem opsL_v4 : after opsL W (Proc.devRef .tc main_v4) = W (Proc.devRef .tc main_v4) := by
  after_results <;> rfl
theorem opsL_arg0 : after opsL W (Proc.devRef .tc main_arg0) = W (Proc.devRef .tc main_arg0) := by
  after_results <;> rfl
theorem opsL_arg1 : after opsL W (Proc.devRef .tc main_arg1) = W (Proc.devRef .tc main_arg1) := by
  after_results <;> rfl
theorem opsL_arg2 : after opsL W (Proc.devRef .tc main_arg2) = W (Proc.devRef .tc main_arg2) := by
  after_results <;> rfl

/-- Stage 3: from buffers holding stage 1's and stage 2's values, after operations 33–51 `main_v20` holds the scalar
    result of the three arguments. -/
theorem opsT_v20 (x0 : (⟨S8192x2, .f32⟩ : BufTy).Contents (Elt F)) (x1 : (⟨S2, .f32⟩ : BufTy).Contents (Elt F)) (x2 : (⟨S8192, .i32⟩ : BufTy).Contents (Elt F))
    (hq : W (Proc.devRef .tc main_v4) = ReadP.val_main_v4 (F := F) x1 x2)
    (hl : W (Proc.devRef .tc main_v5) = ReadP.val_main_v5 (F := F) x0) :
    after opsT W (Proc.devRef .tc main_v20) = ReadP.val_main_v20 (F := F) x0 x1 x2 := by
  after_results
  rw [hq, hl]
  rfl
/-- Stage 3 writes none of the arguments. -/
theorem opsT_arg0 : after opsT W (Proc.devRef .tc main_arg0) = W (Proc.devRef .tc main_arg0) := by
  after_results <;> rfl
theorem opsT_arg1 : after opsT W (Proc.devRef .tc main_arg1) = W (Proc.devRef .tc main_arg1) := by
  after_results <;> rfl
theorem opsT_arg2 : after opsT W (Proc.devRef .tc main_arg2) = W (Proc.devRef .tc main_arg2) := by
  after_results <;> rfl

/-- The whole line: `main_v20` ends at the scalar result of the three arguments' initial contents. -/
theorem ops_v20 : after ops W (Proc.devRef .tc main_v20)
    = ReadP.val_main_v20 (F := F) (W (Proc.devRef .tc main_arg0)) (W (Proc.devRef .tc main_arg1)) (W (Proc.devRef .tc main_arg2)) := by
  rw [after_concat, after_concat]
  refine opsT_v20 _ _ _ _ ((opsL_v4 _).trans (opsQ_v4 W)) ?_
  rw [opsL_v5, opsQ_arg0]
/-- The whole line writes none of the arguments. -/
theorem ops_arg0 : after ops W (Proc.devRef .tc main_arg0) = W (Proc.devRef .tc main_arg0) := by
  rw [after_concat, after_concat, opsT_arg0, opsL_arg0, opsQ_arg0]
theorem ops_arg1 : after ops W (Proc.devRef .tc main_arg1) = W (Proc.devRef .tc main_arg1) := by
  rw [after_concat, after_concat, opsT_arg1, opsL_arg1, opsQ_arg1]
theorem ops_arg2 : after ops W (Proc.devRef .tc main_arg2) = W (Proc.devRef .tc main_arg2) := by
  rw [after_concat, after_concat, opsT_arg2, opsL_arg2, opsQ_arg2]

end Stages

/-- On every device, for any float values, from any memory with zero counters: every weakly fair execution of @main
    terminates with the result buffer at `ReadP.val_main_v20` of the three arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = Cert.ReferenceIdeal.ReadP.val_main_v20 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v20).trans (ops_v20 (launchContents m c)),
      (h c main_arg0).trans (ops_arg0 (launchContents m c)),
      (h c main_arg1).trans (ops_arg1 (launchContents m c)),
      (h c main_arg2).trans (ops_arg2 (launchContents m c))⟩)
    (run_seq scopedRefs_eq scopedSems_eq defs main (fun _ => ops) main_eq (fun _ => ops_sub) m ρ)

end Cert.ReferenceIdeal.RefRun

end
-- ==== Proof.RefValue.lean ====
/-
  The reference's scalar result as the pairwise loss of three of its intermediate arrays.

  At the ideal values the last ten operations of the reference compute, from the vector `A` of per-row sums (`main_v11`),
  the 8192 × 2 array `D` of differences (`main_v12`) and the 8192 × 2 log-softmax `L` (`main_v5`): the 8192 × 8192 array
  whose entry at (a, b) is `|A a - (D a 0 · L b 0 + D a 1 · L b 1)|` — `A` broadcast along the columns, minus the
  contraction of `D`'s row `a` with `L`'s row `b`, in absolute value —, then the total of all entries from the initial
  value zero, plus the small constant, divided by the number of pairs. That is `Cert.Spec.loss A D L`: the sum over the
  rank-2 index set is the double sum over the two coordinates, and each entry is `Cert.Spec.entry` by reading the
  broadcasts and the contraction at the index.
-/
import proofs.«178842_j41944650612977_1_alg».proof.Proof.RefRead
import proofs.«178842_j41944650612977_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

/-- The row index the two broadcasts read at entry (a, b): row `a`. -/
theorem idx_row (a b : Fin 8192) : idx_main_v13 (idx_main_v15 (ix2 a b)) = ix1 a :=
  funext fun d => Fin.ext (by match d with | ⟨0, _⟩ => rfl)

/-- The left operand's index the contraction reads at entry (a, b), term `k`: (a, k). -/
theorem idx_lhs (a b : Fin 8192) (k : Fin 2) : lidx_main_v14 (ix2 a b) k = ix2 a k :=
  funext fun d => Fin.ext (by match d with | ⟨0, _⟩ => rfl | ⟨1, _⟩ => rfl)

/-- The right operand's index the contraction reads at entry (a, b), term `k`: (b, k). -/
theorem idx_rhs (a b : Fin 8192) (k : Fin 2) : ridx_main_v14 (ix2 a b) k = ix2 b k :=
  funext fun d => Fin.ext (by match d with | ⟨0, _⟩ => rfl | ⟨1, _⟩ => rfl)

/-- The entry at (a, b) of the array of absolute differences: `|A a - (D a 0 · L b 0 + D a 1 · L b 1)|`. -/
theorem entry_at (x0 : (⟨Cert.ReferenceIdeal.S8192x2, .f32⟩ : BufTy).Contents (Elt Ideal)) (x1 : (⟨Cert.ReferenceIdeal.S2, .f32⟩ : BufTy).Contents (Elt Ideal)) (x2 : (⟨Cert.ReferenceIdeal.S8192, .i32⟩ : BufTy).Contents (Elt Ideal)) (a b : Fin 8192) :
    val_main_v17 (F := Ideal) x0 x1 x2 (ix2 a b)
      = Cert.Spec.entry (val_main_v11 (F := Ideal) x0 x1 x2 (ix1 a))
          (val_main_v12 (F := Ideal) x0 x1 x2 (ix2 a (0 : Fin 2))) (val_main_v12 (F := Ideal) x0 x1 x2 (ix2 a (1 : Fin 2)))
          (val_main_v5 (F := Ideal) x0 (ix2 b (0 : Fin 2))) (val_main_v5 (F := Ideal) x0 (ix2 b (1 : Fin 2))) := by
  rw [val_main_v17_apply, val_main_v16_apply, val_main_v15_apply, val_main_v13_apply, val_main_v14_apply,
    Fin.sum_univ_two, idx_row, idx_lhs, idx_lhs, idx_rhs, idx_rhs]
  generalize val_main_v11 (F := Ideal) x0 x1 x2 = A
  generalize val_main_v12 (F := Ideal) x0 x1 x2 = D
  generalize val_main_v5 (F := Ideal) x0 = L
  rfl

/-- The reference's result is the loss of its per-row sums, its differences and its log-softmax. -/
theorem result_eq (x0 : (⟨Cert.ReferenceIdeal.S8192x2, .f32⟩ : BufTy).Contents (Elt Ideal)) (x1 : (⟨Cert.ReferenceIdeal.S2, .f32⟩ : BufTy).Contents (Elt Ideal)) (x2 : (⟨Cert.ReferenceIdeal.S8192, .i32⟩ : BufTy).Contents (Elt Ideal)) (i : Cert.ReferenceIdeal.S_.Idx) :
    Cert.ReferenceIdeal.ReadP.val_main_v20 (F := Ideal) x0 x1 x2 i
      = Cert.Spec.loss (Cert.ReferenceIdeal.ReadP.val_main_v11 (F := Ideal) x0 x1 x2) (Cert.ReferenceIdeal.ReadP.val_main_v12 (F := Ideal) x0 x1 x2) (Cert.ReferenceIdeal.ReadP.val_main_v5 (F := Ideal) x0) := by
  rw [val_main_v20_apply, val_main_v19_apply, val_main_v18_apply, val_main_cst_3_apply, val_main_cst_2_apply,
    val_main_cst_4_apply]
  simp only [Ideal.ofBits_def, Ideal.hostDivf_def, Ideal.addf_def, Ideal.ofBits_zero_f32, zero_add]
  rw [sum_idx2 (n0 := 8192) (n1 := 8192) (val_main_v17 (F := Ideal) x0 x1 x2)]
  unfold Cert.Spec.loss Cert.Spec.pairSum Cert.Spec.rowSum
  exact congrArg (fun s => Ideal.div (Ideal.ofBits .f32 0x38D1B717#32 + s) (Ideal.ofBits .f32 0x4C800000#32))
    (Finset.sum_congr rfl fun a _ => Finset.sum_congr rfl fun b _ => entry_at x0 x1 x2 a b)

end Cert.ReferenceIdeal.RefValue

end
-- ==== Proof.lean ====
/-
  The proof of `Cert.Claim`: the tiled kernel's loss equals the reference's, over the extended reals.

  Both programs compute, on the host, from `s`, `class_w`, `t`: the log-softmax `L` of `s`, its exponential `P`, the
  clamped one-hot of `t` scaled by `class_w`, `Q`, the row sums `A = ∑ (P · L - Q · log Q)` and `D = P - Q` — by the same
  operations, which are never opened here. The reference then forms the 8192 × 8192 matrix `|A i - ∑ₖ D i k · L j k|`
  with one contraction, adds all of its entries, adds a small constant and divides by the number of pairs. The kernel
  walks 32 tiles of 256 rows: at each tile it adds, to a 1 × 1 running total zeroed at the first tile, the tile's entries
  `|A i - (D i 0 · L j 0 + D i 1 · L j 1)|` summed along the lanes and then down the rows; the host adds the same constant
  and divides by the same number. A contraction over two terms is the sum of the two products, and a sum over all rows
  is the sum over the tiles of each tile's rows: both hold on the extended reals with their infinities, since only
  associativity and commutativity of addition are used. So both results are `Spec.loss A D L`, and no finiteness of the
  inputs is used.

  The frames of the two kernel programs are the generated ones; the reference's frame is its run with the result
  dropped; the ideal pass rewrote nothing, so the idealization claim is trivial.
-/
import proofs.«178842_j41944650612977_1_alg».proof.Defs
import proofs.«178842_j41944650612977_1_alg».proof.Proof.Gen.Kernel
import proofs.«178842_j41944650612977_1_alg».proof.Proof.Gen.Kernel.Skeleton
import proofs.«178842_j41944650612977_1_alg».proof.Proof.Gen.Kernel.Launch
import proofs.«178842_j41944650612977_1_alg».proof.Proof.Gen.Kernel.Points
import proofs.«178842_j41944650612977_1_alg».proof.Proof.Gen.Kernel.Frame
import proofs.«178842_j41944650612977_1_alg».proof.Proof.Gen.KernelIdeal
import proofs.«178842_j41944650612977_1_alg».proof.Proof.Gen.KernelIdeal.Skeleton
import proofs.«178842_j41944650612977_1_alg».proof.Proof.Gen.KernelIdeal.Launch
import proofs.«178842_j41944650612977_1_alg».proof.Proof.Gen.KernelIdeal.Points
import proofs.«178842_j41944650612977_1_alg».proof.Proof.Gen.KernelIdeal.Frame
import proofs.«178842_j41944650612977_1_alg».proof.Proof.Gen.ReferenceIdeal
import proofs.«178842_j41944650612977_1_alg».proof.Proof.Gen.Pre_finite_inputs
import proofs.«178842_j41944650612977_1_alg».proof.Proof.KernelFinal
import proofs.«178842_j41944650612977_1_alg».proof.Proof.RefRun
import proofs.«178842_j41944650612977_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- At the ideal values, from arguments that agree, the kernel's result and the reference's are the same loss of the same
    three arrays. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  funext i
  exact Cert.ReferenceIdeal.RefValue.result_eq _ _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
